-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : IVec S2x262144 32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S8192x256 : Shape := ⟨2, ![8192, 256]⟩
abbrev S2x262144 : Shape := ⟨2, ![2, 262144]⟩
abbrev S256x256 : Shape := ⟨2, ![256, 256]⟩
abbrev S8192x8192 : Shape := ⟨2, ![8192, 8192]⟩
abbrev S_ : Shape := ⟨0, ![]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192x1 : Shape := ⟨2, ![8192, 1]⟩
abbrev S1024x8192 : Shape := ⟨2, ![1024, 8192]⟩
abbrev S1024x1 : Shape := ⟨2, ![1024, 1]⟩
abbrev S1024 : Shape := ⟨1, ![1024]⟩
abbrev S512x8192 : Shape := ⟨2, ![512, 8192]⟩
abbrev S512x1 : Shape := ⟨2, ![512, 1]⟩
abbrev S512x256 : Shape := ⟨2, ![512, 256]⟩

abbrev nBuf : Space → Nat
  | .hbm => 41
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x256, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .bf16⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x1, .i32⟩
  | .hbm, ⟨30, _⟩ => ⟨S262144x2, .i32⟩
  | .hbm, ⟨31, _⟩ => ⟨S_, .bf16⟩
  | .hbm, ⟨32, _⟩ => ⟨S262144, .bf16⟩
  | .hbm, ⟨33, _⟩ => ⟨S8192x8192, .bf16⟩
  | .hbm, ⟨34, _⟩ => ⟨S8192x1, .f32⟩
  | .hbm, ⟨35, _⟩ => ⟨S256x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .bf16⟩
  | .hbm, ⟨40, _⟩ => ⟨S8192x256, .f32⟩
  | .local _ .vmem, ⟨0, _⟩ => ⟨S1024x8192, .bf16⟩
  | .local _ .vmem, ⟨1, _⟩ => ⟨S1024x8192, .bf16⟩
  | .local _ .vmem, ⟨2, _⟩ => ⟨S1024x1, .f32⟩
  | .local _ .vmem, ⟨3, _⟩ => ⟨S1024x1, .f32⟩
  | .local _ .vmem, ⟨4, _⟩ => ⟨S512x8192, .bf16⟩
  | .local _ .vmem, ⟨5, _⟩ => ⟨S512x8192, .bf16⟩
  | .local _ .vmem, ⟨6, _⟩ => ⟨S8192x256, .bf16⟩
  | .local _ .vmem, ⟨7, _⟩ => ⟨S512x1, .f32⟩
  | .local _ .vmem, ⟨8, _⟩ => ⟨S512x1, .f32⟩
  | .local _ .vmem, ⟨9, _⟩ => ⟨S512x256, .f32⟩
  | .local _ .vmem, ⟨10, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  bitsLt_bf16_f32 : FTy.bits .bf16 < FTy.bits .f32
  reduces_S1024x8192_S1024 : S1024x8192.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  transposes_S256x256_S256x256_1_0 : S256x256.Transposes [1, 0] S256x256
  bcast_S8192x1_S8192x256_0_1 : S8192x1.BroadcastsInDim S8192x256 (![0, 1] : Fin 2 → Fin S8192x256.rank)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  scatter_S8192x8192_S262144x2_S262144_n_01_01_1_wf : ScatterDims.WF S8192x8192 S262144x2 S262144 [] [0, 1] [0, 1] 1
  dot_S8192x256_S256x256_S8192x256_1_0_0_1_n_n_wf : DotDims.WF S8192x256 S256x256 S8192x256 [1] [0] [0] [1] [] []
  dot_S512x8192_S8192x256_S512x256_1_0_0_1_n_n_wf : DotDims.WF S512x8192 S8192x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8192.size a ≤ S8192x8192.size a
  hwx0_0 : ∀ i : grid0.Coords, EltTy.bits .bf16 = 32 ∨ (Rect.block (s := S8192x8192) S1024x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x256.size a
  hwx1_3 : ∀ i : grid1.Coords, EltTy.bits .f32 = 32 ∨ (Rect.block (s := S8192x256) S512x256.size (cc1_transform_3 i) (hinb1_3 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf

abbrev win0_0 : Pipeline.Window sig grid0 :=
  Pipeline.Window.ofSpec (Memref.whole main_v24) S1024x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v24) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x256 : Shape := ⟨2, ![8192, 256]⟩
abbrev S2x262144 : Shape := ⟨2, ![2, 262144]⟩
abbrev S256x256 : Shape := ⟨2, ![256, 256]⟩
abbrev S8192x8192 : Shape := ⟨2, ![8192, 8192]⟩
abbrev S_ : Shape := ⟨0, ![]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x256, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x1, .i32⟩
  | .hbm, ⟨30, _⟩ => ⟨S262144x2, .i32⟩
  | .hbm, ⟨31, _⟩ => ⟨S_, .f32⟩
  | .hbm, ⟨32, _⟩ => ⟨S262144, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S256x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_cst : Ref sig .tc := ⟨.hbm, 52, rfl⟩
abbrev main_call0_v0 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x256_S256x256_1_0 : S256x256.Transposes [1, 0] S256x256
  bcast_S_S8192x256 : S_.BroadcastsInDim S8192x256 (![] : Fin 0 → Fin S8192x256.rank)
  scatter_S8192x8192_S262144x2_S262144_n_01_01_1_wf : ScatterDims.WF S8192x8192 S262144x2 S262144 [] [0, 1] [0, 1] 1
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelRun.lean ====
/-
  The idealized kernel's run, with its result named. @main is four segments — the host operations that build the
  adjacency matrix, the degree kernel, the host operations that project and scale the features, the matmul kernel —
  and after the last one every unscoped buffer holds the last boundary's contents. Read at the result buffer this
  names what @main returns; read at the arguments it says they are unchanged.
-/
import proofs.«123407_j91173565759712_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents, and the three arguments end as launched. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The result buffer is the matmul kernel's output window: at the last boundary it holds what that region's
    write-backs leave. -/
theorem result_eq (c : Dev nD) :
    W4 m ρ c (Proc.devRef .tc main_v31) = (dat1 (V3 m ρ) c).arrAt 3 cfg1.N :=
  W4_arr m ρ c 3

end Cert.KernelIdeal.Run

end
-- ==== Proof.LibKeepdims.lean ====
/-
  A row reduction kept as a column, read at an index by coordinates.

  `jnp.sum(x, axis=1, keepdims=True)` of an `[a, b]` array is three steps on the vector unit: a lane sum into `[a]`, a
  reshape of that vector to the column `[a, 1]`, and (where the column meets an `[a, b]` operand) its broadcast along
  the second axis. Read at `(p, c)` the three steps together are `∑ k, x (p, k)`, whatever `c`:
  `shapeCast_a_a1_apply` (the column at `(i, u)` is the vector at `i`), `broadcastTo_a1_ab_apply` (the broadcast at
  `(p, c)` is the column at `(p, 0)`) and `rowSum_f32` (an f32 lane sum over the second axis of a matrix, from the zero
  word, is the sum over `k` of the row's entries on the extended reals).
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- An `[a]` vector reshaped to the column `[a, 1]` reads, at `(i, u)`, the vector at `i`: both sit at row-major
    position `i`, the unit coordinate contributing nothing. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the second axis of an `[a, b]` matrix, started from the zero word (the sum's neutral element),
    is at row `r` the sum of that row's entries on the extended reals: the reduced index with the coordinate `k` put back
    on axis 1 is `(r, k)`. -/
theorem rowSum_f32 {a b : ℕ} (v : FVec Ideal ⟨2, ![a, b]⟩ .f32) (h : (⟨2, ![a, b]⟩ : Shape).Reduces [1] ⟨1, ![a]⟩) (r : Fin a) :
    multiReduction .add [1] ⟨1, ![a]⟩ v 0x00000000#32 h (.inl rfl) rfl (ix1 r) = ∑ k : Fin b, v (ix2 r k) := by
  refine (Ideal.multiReduction_add_single v 0x00000000#32 h (.inl rfl) rfl (ix1 r)).trans ?_
  refine Finset.sum_congr rfl fun k _ => congrArg v (funext fun c => Fin.ext ?_)
  match c with
  | ⟨0, _⟩ => rfl
  | ⟨1, _⟩ => rfl

end Cert.Lib.Keepdims

end
-- ==== Proof.Payloads.lean ====
/-
  The two kernel bodies read at an index, on the extended reals.

  The degree kernel stores, for each of its block's 1024 rows, the reciprocal square root of the row's sum plus the
  constant ε: entry (p, 0) of its payload is rsqrt ((∑ k, a (p, k)) + ε), a being the adjacency block it loaded.

  The matmul kernel stores, for row p and column q of its block, the row of the adjacency block contracted against
  column q of the scaled features, times the degree factor of row p, clamped below at zero:
  max ((∑ k, a (p, k) · g (k, q)) · d (p, 0)) 0.  The contraction is the matrix unit's product into a zero accumulator,
  which on the extended reals is the plain sum of products; the contraction index of the dot record is carried to
  Fin 8192 by the library's equivalence.
-/
import proofs.«123407_j91173565759712_1_alg».proof.Proof.Gen.KernelIdeal.Skeleton
import proofs.«123407_j91173565759712_1_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Payloads

open Idealize.ShloMosaic Idealize.ShloMosaic.ValueIdx Cert.KernelIdeal Cert.KernelIdeal.Gen Cert.Lib

/-- The degree kernel's stored column, row by row. -/
theorem degree_apply (a : Vec Ideal S1024x8192 .bf16) (p : Fin 1024) (u : Fin 1) :
    k0_pay1 (F := Ideal) a (ix2 p u)
      = Ideal.rsqrt ((∑ k : Fin 8192, a (ix2 p k)) + Ideal.ofBits .f32 0x3727C5AC#32) := by
  unfold k0_pay1
  show Ideal.rsqrt (shapeCast S1024x1 (multiReduction (F := Ideal) .add [1] S1024
      (extf (F := Ideal) .f32 (shapeCast S1024x8192 a shapeCasts_S1024x8192_S1024x8192) bitsLt_bf16_f32) 0x00000000#32
      reduces_S1024x8192_S1024 (.inl rfl) rfl) shapeCasts_S1024_S1024x1 (ix2 p u) + Ideal.ofBits .f32 0x3727C5AC#32) = _
  rw [Keepdims.shapeCast_a_a1_apply, Keepdims.rowSum_f32, shapeCast_self]
  rfl

private abbrev D1 := dot_S512x8192_S8192x256_S512x256_1_0_0_1_n_n

theorem lhs0 (i : S512x256.Idx) (q : D1.contr.Idx) : (D1.lhsIdx i q 0).val = (i 0).val := by
  unfold DotDims.lhsIdx
  rw [dif_neg (show ¬(0 : Fin S512x8192.rank) ∈ D1.lhsBatch by decide), dif_pos (show (0 : Fin S512x8192.rank) ∈ D1.lhsNonContracting by decide)]
  rfl
theorem lhs1 (i : S512x256.Idx) (q : D1.contr.Idx) : (D1.lhsIdx i q 1).val = (q ⟨0, by decide⟩).val :=
  D1.lhsIdx_val_of_single rfl i q
theorem rhs0 (i : S512x256.Idx) (q : D1.contr.Idx) : (D1.rhsIdx i q 0).val = (q ⟨0, by decide⟩).val :=
  D1.rhsIdx_val_of_single rfl i q
theorem rhs1 (i : S512x256.Idx) (q : D1.contr.Idx) : (D1.rhsIdx i q 1).val = (i 1).val := by
  unfold DotDims.rhsIdx
  rw [dif_neg (show ¬(1 : Fin S8192x256.rank) ∈ D1.rhsBatch by decide), dif_pos (show (1 : Fin S8192x256.rank) ∈ D1.rhsNonContracting by decide)]
  rfl

/-- The block product at (p, q): the row of the left block against the column of the right one. -/
theorem product_apply (a : FVec Ideal S512x8192 .bf16) (g : FVec Ideal S8192x256 .bf16) (p : Fin 512) (q : Fin 256) :
    matmul (F := Ideal) D1 none a g (constant (F := Ideal) S512x256 .f32 0x00000000#32) (ix2 p q) = ∑ k : Fin 8192, a (ix2 p k) * g (ix2 k q) := by
  simp only [matmul]
  rw [Ideal.matmul_constant_zero_apply, ← Equiv.sum_comp (ValueIdx.contrEquiv1 D1 8192 rfl rfl).symm]
  refine Finset.sum_congr rfl fun k _ => ?_
  have hk := ValueIdx.contrEquiv1_symm_val D1 8192 rfl rfl k
  have el : D1.lhsIdx (ix2 p q) ((ValueIdx.contrEquiv1 D1 8192 rfl rfl).symm k) = ix2 p k := funext fun c => Fin.ext (by
    match c with
    | ⟨0, _⟩ => exact lhs0 _ _
    | ⟨1, _⟩ => exact (lhs1 _ _).trans hk)
  have er : D1.rhsIdx (ix2 p q) ((ValueIdx.contrEquiv1 D1 8192 rfl rfl).symm k) = ix2 k q := funext fun c => Fin.ext (by
    match c with
    | ⟨0, _⟩ => exact (rhs0 _ _).trans hk
    | ⟨1, _⟩ => exact rhs1 _ _)
  rw [el, er]

/-- The matmul kernel's stored block, entry by entry. -/
theorem matmul_apply (a : Vec Ideal S512x8192 .bf16) (g : Vec Ideal S8192x256 .bf16) (d : Vec Ideal S512x1 .f32)
    (p : Fin 512) (q : Fin 256) :
    k1_pay1 (F := Ideal) a g d (ix2 p q)
      = max ((∑ k : Fin 8192, a (ix2 p k) * g (ix2 k q)) * d (ix2 p (0 : Fin 1))) 0 := by
  unfold k1_pay1
  show max (matmul (F := Ideal) D1 none (shapeCast S512x8192 a shapeCasts_S512x8192_S512x8192) (shapeCast S8192x256 g shapeCasts_S8192x256_S8192x256)
        (constant (F := Ideal) S512x256 .f32 0x00000000#32) (ix2 p q)
      * broadcastTo S512x256 (shapeCast S512x1 d shapeCasts_S512x1_S512x1) broadcasts_S512x1_S512x256 (ix2 p q))
      (Ideal.ofBits .f32 0x00000000#32) = _
  rw [product_apply, Keepdims.broadcastTo_a1_ab_apply, shapeCast_self, shapeCast_self, shapeCast_self, Ideal.ofBits_zero_f32]

end Cert.KernelIdeal.Payloads

end
-- ==== Proof.Regions.lean ====
/-
  What each kernel leaves in its output array, as one function of the arrays it found on entry.

  The degree kernel runs over 8 points; point t loads rows [1024 t, 1024 t + 1024) of the adjacency matrix (all 8192
  columns) and writes rows [1024 t, 1024 t + 1024) of the degree column. Entry (i, 0) of that column therefore ends at
  rsqrt ((∑ k, A (i, k)) + ε): each block written back is the restriction of that one function, and the 8 blocks cover
  the column.

  The matmul kernel runs over 16 points; point t loads rows [512 t, 512 t + 512) of the adjacency matrix, the whole scaled
  feature matrix, and rows [512 t, 512 t + 512) of the degree column, and writes rows [512 t, 512 t + 512) of the result.
  Entry (i, c) of the result ends at max ((∑ k, A (i, k) · g (k, c)) · d (i, 0)) 0, and the 16 blocks cover it.

  A block's coordinate on an axis is always (block index) × (block size) + (coordinate inside the block); the block
  indices of the printed index maps are decided once over each grid.
-/
import proofs.«123407_j91173565759712_1_alg».proof.Proof.Gen.KernelIdeal.Frame
import proofs.«123407_j91173565759712_1_alg».proof.Proof.Payloads

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The degree kernel -/

/-- The degree column as a function of the adjacency matrix. -/
def degree (A : S8192x8192.Idx → EReal) : S8192x1.Idx → EReal := fun j =>
  Ideal.rsqrt ((∑ k : Fin 8192, A (ix2 (j 0) k)) + Ideal.ofBits .f32 0x3727C5AC#32)

/-- One entry of a stored block is the degree function at the array index it lands on, when the loaded block's row
    is the matrix's row there. -/
theorem degree_point (a : Vec Ideal S1024x8192 .bf16) (A : S8192x8192.Idx → EReal) (y : S1024x1.Idx) (i : S8192x1.Idx)
    (ha : ∀ k : Fin 8192, a (ix2 (y 0) k) = A (ix2 (i 0) k)) : k0_pay1 (F := Ideal) a y = degree A i := by
  obtain ⟨p, u, rfl⟩ : ∃ (p : Fin 1024) (u : Fin 1), y = ix2 p u := ⟨y 0, y 1, eq_ix2 y⟩
  rw [Payloads.degree_apply]
  unfold degree
  exact congrArg (fun s => Ideal.rsqrt (s + _)) (Finset.sum_congr rfl fun k _ => ha k)

/-- The printed index maps over the 8 points: the input block and the output block sit on the same block row, and the
    other block coordinates are 0. -/
theorem index_facts0 : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every block row of the column is some point's. -/
theorem index_onto0 : ∀ q : Fin 8, ∃ t : Fin cfg0.N, win0_1.index t = ![q.val, 0] :=
  (by decide +kernel : ∀ q : Fin 8, ∃ t : Fin grid0.N, win0_1.index t = ![q.val, 0])

/-- What point t writes back is block t of the degree function of the matrix the region found. -/
theorem degree_flushed (c : Dev nD) (t : Fin cfg0.N) :
    (dat0 V c).flushed 1 t = ((cfg0.win 1).blk t).view.read (Elt Ideal) (degree (V c main_v24)) := by
  show (cfg0.win 1).cut (grid0.coords t) ((dat0 V c).after 1 t) = _
  rw [after0_1]
  unfold out0_1
  rw [View.canon_unit_zero hz]
  simp only [View.ld_unit_zero (S := S1024x8192) hz]
  obtain ⟨e0, e1, e2⟩ := index_facts0 t
  funext y
  refine degree_point (iblk0 V c 0 t) (V c main_v24) y (((cfg0.win 1).blk t).view.emb y) fun k => ?_
  show V c main_v24 (((cfg0.win 0).blk t).view.emb (ix2 (y 0) k)) = V c main_v24 (ix2 ((((cfg0.win 1).blk t).view.emb y) 0) k)
  refine congrArg (V c main_v24) (funext fun ax => Fin.ext ?_)
  match ax with
  | ⟨0, _⟩ => show win0_0.index t (0 : Fin 2) * 1024 + 1 * (y 0).val = win0_1.index t (0 : Fin 2) * 1024 + 1 * (y 0).val; omega
  | ⟨1, _⟩ => show win0_0.index t (1 : Fin 2) * 8192 + 1 * k.val = k.val; omega

/-- An index of the column is in point t's block iff each coordinate is in the block's range. -/
theorem degree_mem_blk (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v25).slice (win0_1.rect t)).set ↔ _
  rw [View.set_slice_whole, Rect.mem_set_unit]
  exact Iff.rfl

/-- Row i of the column is covered by point i / 1024. -/
theorem degree_cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ := index_onto0 ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [degree_mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1 ≤ (i 1).val ∧ (i 1).val < win0_1.index t (1 : Fin 2) * 1 + 1; omega

/-- The degree column after the region. -/
theorem degree_final (c : Dev nD) : (dat0 V c).arrAt 1 cfg0.N = degree (V c main_v24) :=
  (dat0 V c).arrAt_eq_of_cover 1 (degree (V c main_v24)) (fun t _ => degree_flushed V c t) degree_cover

/-! ## The matmul kernel -/

/-- The result as a function of the adjacency matrix, the scaled features and the degree column. -/
def aggregate (A : S8192x8192.Idx → EReal) (g : S8192x256.Idx → EReal) (d : S8192x1.Idx → EReal) : S8192x256.Idx → EReal := fun j =>
  max ((∑ k : Fin 8192, A (ix2 (j 0) k) * g (ix2 k (j 1))) * d (ix2 (j 0) (0 : Fin 1))) 0

/-- One entry of a stored block is the aggregate at the array index it lands on, when the loaded blocks hold the
    matrix's row, the features' column and the degree entry there. -/
theorem aggregate_point (a : Vec Ideal S512x8192 .bf16) (g : Vec Ideal S8192x256 .bf16) (d : Vec Ideal S512x1 .f32)
    (A : S8192x8192.Idx → EReal) (G : S8192x256.Idx → EReal) (D : S8192x1.Idx → EReal) (y : S512x256.Idx) (i : S8192x256.Idx)
    (ha : ∀ k : Fin 8192, a (ix2 (y 0) k) = A (ix2 (i 0) k)) (hg : ∀ k : Fin 8192, g (ix2 k (y 1)) = G (ix2 k (i 1)))
    (hd : d (ix2 (y 0) (0 : Fin 1)) = D (ix2 (i 0) (0 : Fin 1))) : k1_pay1 (F := Ideal) a g d y = aggregate A G D i := by
  obtain ⟨p, q, rfl⟩ : ∃ (p : Fin 512) (q : Fin 256), y = ix2 p q := ⟨y 0, y 1, eq_ix2 y⟩
  rw [Payloads.matmul_apply]
  unfold aggregate
  have hd' : d (ix2 p (0 : Fin 1)) = D (ix2 (i 0) (0 : Fin 1)) := hd
  rw [hd']
  refine congrArg (fun s => max (s * _) 0) (Finset.sum_congr rfl fun k _ => ?_)
  have e1 : a (ix2 p k) = A (ix2 (i 0) k) := ha k
  have e2 : g (ix2 k q) = G (ix2 k (i 1)) := hg k
  rw [e1, e2]

/-- The printed index maps over the 16 points: the matrix block, the degree block and the output block sit on the same
    block row; the feature matrix is one block; the other block coordinates are 0. -/
theorem index_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 :=
  (by decide +kernel : ∀ t : Fin grid1.N, _)

/-- Every block row of the result is some point's. -/
theorem index_onto1 : ∀ q : Fin 16, ∃ t : Fin cfg1.N, win1_3.index t = ![q.val, 0] :=
  (by decide +kernel : ∀ q : Fin 16, ∃ t : Fin grid1.N, win1_3.index t = ![q.val, 0])

/-- What point t writes back is block t of the aggregate of the arrays the region found. -/
theorem aggregate_flushed (c : Dev nD) (t : Fin cfg1.N) :
    (dat1 V c).flushed 3 t = ((cfg1.win 3).blk t).view.read (Elt Ideal) (aggregate (V c main_v24) (V c main_v30) (V c main_v25)) := by
  show (cfg1.win 3).cut (grid1.coords t) ((dat1 V c).after 3 t) = _
  rw [after1_3]
  unfold out1_3
  rw [View.canon_unit_zero hz]
  simp only [View.ld_unit_zero (S := S512x8192) hz, View.ld_unit_zero (S := S8192x256) hz, View.ld_unit_zero (S := S512x1) hz]
  obtain ⟨e0, e1, e2, e3, e4, e5, e6⟩ := index_facts1 t
  funext y
  refine aggregate_point (iblk1 V c 0 t) (iblk1 V c 1 t) (iblk1 V c 2 t) (V c main_v24) (V c main_v30) (V c main_v25) y
    (((cfg1.win 3).blk t).view.emb y) (fun k => ?_) (fun k => ?_) ?_
  · show V c main_v24 (((cfg1.win 0).blk t).view.emb (ix2 (y 0) k)) = V c main_v24 (ix2 ((((cfg1.win 3).blk t).view.emb y) 0) k)
    refine congrArg (V c main_v24) (funext fun ax => Fin.ext ?_)
    match ax with
    | ⟨0, _⟩ => show win1_0.index t (0 : Fin 2) * 512 + 1 * (y 0).val = win1_3.index t (0 : Fin 2) * 512 + 1 * (y 0).val; omega
    | ⟨1, _⟩ => show win1_0.index t (1 : Fin 2) * 8192 + 1 * k.val = k.val; omega
  · show V c main_v30 (((cfg1.win 1).blk t).view.emb (ix2 k (y 1))) = V c main_v30 (ix2 k ((((cfg1.win 3).blk t).view.emb y) 1))
    refine congrArg (V c main_v30) (funext fun ax => Fin.ext ?_)
    match ax with
    | ⟨0, _⟩ => show win1_1.index t (0 : Fin 2) * 8192 + 1 * k.val = k.val; omega
    | ⟨1, _⟩ => show win1_1.index t (1 : Fin 2) * 256 + 1 * (y 1).val = win1_3.index t (1 : Fin 2) * 256 + 1 * (y 1).val; omega
  · show V c main_v25 (((cfg1.win 2).blk t).view.emb (ix2 (y 0) (0 : Fin 1))) = V c main_v25 (ix2 ((((cfg1.win 3).blk t).view.emb y) 0) (0 : Fin 1))
    refine congrArg (V c main_v25) (funext fun ax => Fin.ext ?_)
    match ax with
    | ⟨0, _⟩ => show win1_2.index t (0 : Fin 2) * 512 + 1 * (y 0).val = win1_3.index t (0 : Fin 2) * 512 + 1 * (y 0).val; omega
    | ⟨1, _⟩ => show win1_2.index t (1 : Fin 2) * 1 + 1 * 0 = 0; omega

/-- An index of the result is in point t's block iff each coordinate is in the block's range. -/
theorem aggregate_mem_blk (t : Fin cfg1.N) (i : S8192x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v31).slice (win1_3.rect t)).set ↔ _
  rw [View.set_slice_whole, Rect.mem_set_unit]
  exact Iff.rfl

/-- Row i of the result is covered by point i / 512. -/
theorem aggregate_cover (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  obtain ⟨t, ht⟩ := index_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [aggregate_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- The result array after the region. -/
theorem aggregate_final (c : Dev nD) :
    (dat1 V c).arrAt 3 cfg1.N = aggregate (V c main_v24) (V c main_v30) (V c main_v25) :=
  (dat1 V c).arrAt_eq_of_cover 3 (aggregate (V c main_v24) (V c main_v30) (V c main_v25)) (fun t _ => aggregate_flushed V c t) aggregate_cover

end Cert.KernelIdeal.Regions

end
-- ==== Proof.LibScatterSet.lean ====
/-
  A scatter whose body returns the update ("set" semantics), read without knowing where the indices land.

  The host scatter is a left fold over the update positions: each in-bounds update replaces one element of the
  operand by the body applied to that element and the update's, an out-of-bounds one is dropped. When the body is
  `fun _ b => b` every element of the result is therefore either an element of the operand or an element of the
  updates, whatever the scatter indices hold. Two consequences:

  * `scatter_set_forall`: a predicate that holds of every operand element and of every update element holds of
    every element of the result (for instance "is 0 or 1" for an adjacency matrix built by setting ones into an
    identity matrix);
  * `scatter_congr`: two scatters are equal when their dimension records, operands, indices and updates are — the
    congruence stated once over arbitrary shapes, so that it is never asked of a fold over a literal update count.
-/
import Idealize.ShloMosaic.PureOps.ShapeOps

noncomputable section

namespace Cert.Lib.ScatterSet

open Idealize.ShloMosaic

/-- Every element of a set-scatter's result satisfies any predicate that all operand elements and all update
    elements satisfy. -/
theorem scatter_set_forall {α : Type} {s si u : Shape} {w : Nat} (d : ScatterDims s si u) (idx : IVec si w)
    (upd : u.Idx → α) (P : α → Prop) (hu : ∀ j, P (upd j)) (x : s.Idx → α) (hx : ∀ i, P (x i)) (i : s.Idx) :
    P (Host.scatter d (fun _ b => b) x idx upd i) := by
  unfold Host.scatter
  generalize List.finRange u.numel = l
  induction l generalizing x with
  | nil => exact hx i
  | cons n l ih =>
    rw [List.foldl_cons]
    refine ih _ fun i' => ?_
    generalize d.resultIdx? (u.rowMajor.symm n) idx = o
    cases o with
    | none => exact hx i'
    | some j =>
      show P (if i' = j then upd (u.rowMajor.symm n) else x i')
      split_ifs
      · exact hu _
      · exact hx _

/-- Scatters of equal parts are equal. -/
theorem scatter_congr {α : Type} {s si u : Shape} {w : Nat} {d d' : ScatterDims s si u} {f : α → α → α}
    {x x' : s.Idx → α} {idx idx' : IVec si w} {upd upd' : u.Idx → α}
    (hd : d = d') (hx : x = x') (hidx : idx = idx') (hupd : upd = upd') :
    Host.scatter d f x idx upd = Host.scatter d' f x' idx' upd' := by
  subst hd hx hidx hupd; rfl

end Cert.Lib.ScatterSet

end
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.Law.lean ====
/-
  The mathematics joining the two programs, on the extended reals, with no program in sight.

  Both compute, from a 0/1 adjacency matrix A (8192 × 8192) and a feature matrix H (8192 × 256),
      out (i, c) = max (∑ j, d i · A (i, j) · d j · H (j, c)) 0,     d i = 1 / √((∑ j, A (i, j)) + ε).
  The kernel scales the features first and the rows last:  (∑ j, A (i, j) · (d j · H (j, c))) · d i, with d i taken as
  the reciprocal square root.  The reference normalises the matrix first:  ∑ j, ((d i · A (i, j)) · d j) · H (j, c),
  with d i the quotient of 1 by the square root.

  Moving the factor d i across the sum is distributivity, which on the extended reals needs every term finite. It is:
  A's entries are 0 or 1, so a row sum is a nonnegative real and, ε being a positive real, row sum plus ε is a positive
  real, whose reciprocal square root is a real (and is the quotient of 1 by its square root); H's entries are real by
  hypothesis. So both sides are coercions of one real number.
-/
import Idealize.ShloMosaic.PureOps.Ideal
import Idealize.ShloMosaic.PureOps.Ideal.Laws
import Idealize.ShloMosaic.Lib.ValueIdx

noncomputable section

open scoped BigOperators

namespace Cert.Law

open Idealize.ShloMosaic Idealize.ShloMosaic.ValueIdx

/-! ## The constants the two programs spell -/

/-- The f32 word of 1.0 denotes 1. -/
theorem one_f32 : Ideal.ofBits .f32 0x3F800000#32 = 1 := by
  simp [Ideal.ofBits, Ideal.ieee, -EReal.coe_mul]; norm_num

/-- The f32 word of 0.0 denotes 0. -/
theorem ofBits_zero : Ideal.ofBits .f32 0x00000000#32 = 0 := Ideal.ofBits_zero_f32

/-- The bf16 word of 1.0 denotes 1. -/
theorem one_bf16 : Ideal.ofBits .bf16 0x3F80#16 = 1 := by
  simp [Ideal.ofBits, Ideal.ieee, -EReal.coe_mul]; norm_num

/-- The f32 word both programs add to a row sum (the nearest f32 to 1e-5) denotes a positive real. -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## Sums of reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum with zero. -/
theorem coe_max_zero (x : ℝ) : max (x : EReal) 0 = ((max x 0 : ℝ) : EReal) := by
  rw [← EReal.coe_zero]; exact (EReal.coe_strictMono.monotone.map_max).symm

/-! ## The two sides -/

abbrev Adj := (⟨2, ![8192, 8192]⟩ : Shape).Idx → EReal
abbrev Feat := (⟨2, ![8192, 256]⟩ : Shape).Idx → EReal

/-- The degree factor as the kernel takes it: the reciprocal square root of row sum plus ε. -/
def degK (ε : EReal) (A : Adj) (i : Fin 8192) : EReal := Ideal.rsqrt ((∑ k : Fin 8192, A (ix2 i k)) + ε)

/-- The degree factor as the reference takes it: `one` over the square root of (`zero` plus the row sum) plus ε. -/
def degR (one zero ε : EReal) (A : Adj) (i : Fin 8192) : EReal :=
  Ideal.div one (Ideal.sqrt ((zero + ∑ k : Fin 8192, A (ix2 i k)) + ε))

/-- The kernel's result: features scaled by the degree factor, aggregated along A, rows scaled, clamped at zero. -/
def outK (ε : EReal) (A : Adj) (H : Feat) : Feat := fun j =>
  max ((∑ k : Fin 8192, A (ix2 (j 0) k) * (degK ε A k * H (ix2 k (j 1)))) * degK ε A (j 0)) 0

/-- The reference's result: A normalised on both sides, then the product with the features, clamped at `zero`. -/
def outR (one zero ε : EReal) (A : Adj) (H : Feat) : Feat := fun j =>
  max (∑ k : Fin 8192, ((degR one zero ε A (j 0) * A (ix2 (j 0) k)) * degR one zero ε A k) * H (ix2 k (j 1))) zero

/-- The law: for a 0/1 matrix, real features, a positive real ε, and `one`, `zero` denoting 1 and 0, the two results
    are one function. -/
theorem outK_eq_outR (A : Adj) (H : Feat) (ε one zero : EReal) (e : ℝ) (he : 0 < e) (hε : ε = (e : EReal))
    (h1 : one = 1) (h0 : zero = 0) (hA : ∀ ix, A ix = 0 ∨ A ix = 1) (hH : ∀ ix, ∃ r : ℝ, H ix = (r : EReal)) :
    outK ε A H = outR one zero ε A H := by
  subst h1 h0
  have hA' : ∀ ix, ∃ r : ℝ, 0 ≤ r ∧ A ix = (r : EReal) := fun ix =>
    (hA ix).elim (fun h => ⟨0, le_rfl, by rw [h]; rfl⟩) (fun h => ⟨1, zero_le_one, by rw [h]; rfl⟩)
  choose a ha0 ha using hA'
  choose h hh using hH
  -- a row sum is the coercion of a nonnegative real
  have hs : ∀ i : Fin 8192, (∑ k : Fin 8192, A (ix2 i k)) = ((∑ k : Fin 8192, a (ix2 i k) : ℝ) : EReal) := fun i => by
    rw [coe_sum]; exact Finset.sum_congr rfl fun k _ => ha _
  have hpos : ∀ i : Fin 8192, 0 < (∑ k : Fin 8192, a (ix2 i k)) + e := fun i =>
    add_pos_of_nonneg_of_pos (Finset.sum_nonneg fun k _ => ha0 _) he
  -- so both degree factors are the coercion of the same positive real
  have hdK : ∀ i, degK ε A i = (((Real.sqrt ((∑ k : Fin 8192, a (ix2 i k)) + e))⁻¹ : ℝ) : EReal) := fun i => by
    unfold degK
    rw [hs, hε, ← EReal.coe_add, Ideal.rsqrt_coe, if_neg (not_lt.mpr (hpos i).le), if_neg (hpos i).ne']
  have hdR : ∀ i, degR 1 0 ε A i = (((Real.sqrt ((∑ k : Fin 8192, a (ix2 i k)) + e))⁻¹ : ℝ) : EReal) := fun i => by
    unfold degR
    rw [hs, hε, zero_add, ← EReal.coe_add, Ideal.sqrt_coe, if_neg (not_lt.mpr (hpos i).le),
      Ideal.div_coe (Real.sqrt_ne_zero'.mpr (hpos i)), one_mul, one_div]
  funext j
  unfold outK outR
  rw [hdK (j 0), hdR (j 0)]
  have hl : (∑ k : Fin 8192, A (ix2 (j 0) k) * (degK ε A k * H (ix2 k (j 1))))
      = ((∑ k : Fin 8192, a (ix2 (j 0) k) * ((Real.sqrt ((∑ k' : Fin 8192, a (ix2 k k')) + e))⁻¹ * h (ix2 k (j 1))) : ℝ) : EReal) := by
    rw [coe_sum]
    exact Finset.sum_congr rfl fun k _ => by rw [ha, hdK, hh, EReal.coe_mul, EReal.coe_mul]
  have hr : (∑ k : Fin 8192, (((((Real.sqrt ((∑ k' : Fin 8192, a (ix2 (j 0) k')) + e))⁻¹ : ℝ) : EReal) * A (ix2 (j 0) k)) * degR 1 0 ε A k) * H (ix2 k (j 1)))
      = ((∑ k : Fin 8192, (((Real.sqrt ((∑ k' : Fin 8192, a (ix2 (j 0) k')) + e))⁻¹ * a (ix2 (j 0) k)) * (Real.sqrt ((∑ k' : Fin 8192, a (ix2 k k')) + e))⁻¹) * h (ix2 k (j 1)) : ℝ) : EReal) := by
    rw [coe_sum]
    exact Finset.sum_congr rfl fun k _ => by rw [ha, hdR, hh, EReal.coe_mul, EReal.coe_mul, EReal.coe_mul]
  rw [hl, hr, ← EReal.coe_mul, coe_max_zero, coe_max_zero]
  refine congrArg (fun x : ℝ => ((max x 0 : ℝ) : EReal)) ?_
  rw [Finset.sum_mul]
  exact Finset.sum_congr rfl fun k _ => by ring

end Cert.Law

end
-- ==== Proof.HostSide.lean ====
/-
  What the kernel program's host operations leave in the buffers its two regions read, on the extended reals.

  Before the first region the host builds the adjacency matrix: an identity matrix (row index = column index, as 0/1)
  with a one set at every (source, target) pair of the edge list, the indices first wrapped when negative. That is
  operation for operation what the reference builds; the kernel only stores it in bf16, which changes nothing here: a
  0/1 integer reads as the same extended real in either format, and the bf16 word and the f32 word of 1.0 both denote 1.

  Between the regions the host multiplies the projected features x·Wᵀ, row by row, by the degree column the first region
  wrote, and narrows the product to bf16 (the identity here). The adjacency matrix is untouched by the first region and
  by that stretch, so the second region finds it as the first did; the degree column it finds is the one the first
  region wrote.
-/
import proofs.«123407_j91173565759712_1_alg».proof.Proof.Gen.KernelIdeal.Frame
import proofs.«123407_j91173565759712_1_alg».proof.Proof.Gen.ReferenceIdeal.Read
import proofs.«123407_j91173565759712_1_alg».proof.Proof.LibScatterSet
import proofs.«123407_j91173565759712_1_alg».proof.Proof.LibConcat2
import proofs.«123407_j91173565759712_1_alg».proof.Proof.Law
import Idealize.ShloMosaic.Lib.Pipeline.Value
import Idealize.ShloMosaic.Lib.ValueIdx

set_option maxRecDepth 16384

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen Cert.Lib Cert.HostLine

variable (m : (ℓ : Loc nD τ sig) → Buf (Elt Ideal) ℓ) (ρ : Dev nD → PrngReg)

/-- The adjacency matrix the first region finds is the reference's adjacency matrix of the same edge list. -/
theorem adjacency_entry (c : Dev nD) :
    (V1 m ρ c main_v24 : S8192x8192.Idx → EReal)
      = Cert.ReferenceIdeal.Read.val_main_v24 (F := Ideal) (m ((c : Thread nD τ).loc main_arg1)) := by
  show StableHlo.after hostOps0 (W0 m ρ c) (Proc.devRef .tc main_v24) = _
  host_line
  unfold Cert.ReferenceIdeal.Read.val_main_v24
  refine ScatterSet.scatter_congr rfl rfl rfl ?_
  unfold Cert.ReferenceIdeal.Read.val_main_v23 Cert.ReferenceIdeal.Read.val_main_cst
  refine congrArg (broadcastInDim _ _ _) (funext fun i => ?_)
  exact Law.one_bf16.trans Law.one_f32.symm

/-- The second region finds the adjacency matrix as the first did. -/
theorem adjacency_kept (c : Dev nD) : V3 m ρ c main_v24 = V1 m ρ c main_v24 :=
  (show StableHlo.after hostOps1 (W2 m ρ c) (Proc.devRef .tc main_v24) = W2 m ρ c (Proc.devRef .tc main_v24) by host_line).trans
    ((W2_arr m ρ c 0).trans (((dat0 (V1 m ρ) c).arrAt_in 0 rfl _).trans (A_eq0 (V1 m ρ) c 0)))

/-- The degree column the second region finds is what the first region's write-backs left. -/
theorem degree_entry (c : Dev nD) : V3 m ρ c main_v25 = (dat0 (V1 m ρ) c).arrAt 1 cfg0.N :=
  (show StableHlo.after hostOps1 (W2 m ρ c) (Proc.devRef .tc main_v25) = W2 m ρ c (Proc.devRef .tc main_v25) by host_line).trans
    (W2_arr m ρ c 1)

/-- The arguments, read after the first region, are as launched. -/
theorem arg0_kept (c : Dev nD) : W2 m ρ c (Proc.devRef .tc main_arg0) = m ((c : Thread nD τ).loc main_arg0) :=
  (W2_of_ne m ρ c main_arg0 (by decide)).trans
    (show StableHlo.after hostOps0 (W0 m ρ c) (Proc.devRef .tc main_arg0) = _ by host_line)
theorem arg2_kept (c : Dev nD) : W2 m ρ c (Proc.devRef .tc main_arg2) = m ((c : Thread nD τ).loc main_arg2) :=
  (W2_of_ne m ρ c main_arg2 (by decide)).trans
    (show StableHlo.after hostOps0 (W0 m ρ c) (Proc.devRef .tc main_arg2) = _ by host_line)

/-- Features scaled row by row by a column. -/
def scaled (d : S8192x1.Idx → EReal) (h : S8192x256.Idx → EReal) : S8192x256.Idx → EReal := fun j =>
  d (ix2 (j 0) (0 : Fin 1)) * h j

/-- The scaled features the second region finds: the degree column it finds, broadcast along the rows, times the
    reference's projected features. -/
theorem scaled_entry (c : Dev nD) :
    (V3 m ρ c main_v30 : S8192x256.Idx → EReal)
      = scaled (V3 m ρ c main_v25)
          (Cert.ReferenceIdeal.Read.val_main_v38 (F := Ideal) (m ((c : Thread nD τ).loc main_arg0)) (m ((c : Thread nD τ).loc main_arg2))) := by
  have e : (V3 m ρ c main_v30 : S8192x256.Idx → EReal)
      = truncf (F := Ideal) (φ := .f32) .bf16 (mulf (F := Ideal) (φ := .f32) (broadcastInDim S8192x256 ![0, 1] bcast_S8192x1_S8192x256_0_1 (V3 m ρ c main_v25 : S8192x1.Idx → EReal))
          (Cert.ReferenceIdeal.Read.val_main_v38 (F := Ideal) (m ((c : Thread nD τ).loc main_arg0)) (m ((c : Thread nD τ).loc main_arg2)) : S8192x256.Idx → EReal)) bitsLt_bf16_f32 := by
    rw [degree_entry]
    show StableHlo.after hostOps1 (W2 m ρ c) (Proc.devRef .tc main_v30) = _
    host_line
    rw [arg0_kept, arg2_kept, W2_arr m ρ c 1]
    rfl
  rw [e]
  funext j
  unfold scaled
  rw [truncf_apply, mulf_apply]
  refine congrArg (· * _) ?_
  refine broadcastInDim_apply _ bcast_S8192x1_S8192x256_0_1 _ j (ix2 (j 0) (0 : Fin 1)) fun a => ?_
  match a with
  | ⟨0, _⟩ => rfl
  | ⟨1, _⟩ => rfl

end Cert.KernelIdeal.HostSide

end
-- ==== Proof.KernelValue.lean ====
/-
  What the kernel program returns, as a function of its arguments, on the extended reals.

  The result buffer holds what the matmul kernel's write-backs leave: the aggregate of the adjacency matrix, the scaled
  features and the degree column that region found. The adjacency matrix it found is the one the host built (neither the
  degree kernel nor the host stretch in between writes it), which is the reference's adjacency matrix A of the edge list.
  The degree column it found is what the degree kernel left: rsqrt (row sum of A + ε) row by row. The scaled features
  are that column times the projected features H = x·Wᵀ, row by row. Put together, entry (i, c) of the result is
      max ((∑ k, A (i, k) · (d k · H (k, c))) · d i) 0,     d i = rsqrt ((∑ k, A (i, k)) + ε),
  the kernel side of the law.
-/
import proofs.«123407_j91173565759712_1_alg».proof.Proof.KernelRun
import proofs.«123407_j91173565759712_1_alg».proof.Proof.Regions
import proofs.«123407_j91173565759712_1_alg».proof.Proof.HostSide
import proofs.«123407_j91173565759712_1_alg».proof.Proof.Law

set_option maxRecDepth 16384

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen

/-- The aggregate of a matrix, its degree column, and features scaled by that column is the law's kernel side. -/
theorem aggregate_eq_outK (A : Law.Adj) (H : Law.Feat) :
    Regions.aggregate A (HostSide.scaled (Regions.degree A) H) (Regions.degree A)
      = Law.outK (Ideal.ofBits .f32 0x3727C5AC#32) A H := by
  funext j
  obtain ⟨r, c, rfl⟩ : ∃ (r : Fin 8192) (c : Fin 256), j = ix2 r c := ⟨j 0, j 1, eq_ix2 j⟩
  show max ((∑ k : Fin 8192, A (ix2 r k) * (Law.degK (Ideal.ofBits .f32 0x3727C5AC#32) A k * H (ix2 k c)))
      * Law.degK (Ideal.ofBits .f32 0x3727C5AC#32) A r) 0 = _
  rfl

variable (m : (ℓ : Loc nD τ sig) → Buf (Elt Ideal) ℓ) (ρ : Dev nD → PrngReg)

/-- The result buffer after the run, as the law's kernel side of the reference's adjacency matrix and projected
    features of the same arguments. -/
theorem result_eq (c : Dev nD) :
    W4 m ρ c (Proc.devRef .tc main_v31)
      = Law.outK (Ideal.ofBits .f32 0x3727C5AC#32)
          (Cert.ReferenceIdeal.Read.val_main_v24 (F := Ideal) (m ((c : Thread nD τ).loc main_arg1)))
          (Cert.ReferenceIdeal.Read.val_main_v38 (F := Ideal) (m ((c : Thread nD τ).loc main_arg0)) (m ((c : Thread nD τ).loc main_arg2))) := by
  rw [Run.result_eq, Regions.aggregate_final, HostSide.scaled_entry, HostSide.degree_entry, Regions.degree_final,
    HostSide.adjacency_kept, HostSide.adjacency_entry]
  exact aggregate_eq_outK _ _

end Cert.KernelIdeal.KernelValue

end
-- ==== Proof.RefSide.lean ====
/-
  The reference program's result, read one operation at a time, on the extended reals.

  Row r of the reference's degree vector is `one` divided by the square root of (`zero` plus the row sum of the adjacency
  matrix) plus ε — the words of 1.0, 0.0 and of the f32 nearest 1e-5. The normalised matrix at (i, k) is that factor at
  i, times the adjacency entry, times the factor at k; the result at (i, c) is the sum over k of the normalised entry
  times the projected feature (k, c), clamped below at the word of 0.0.

  Two facts about its parts. Every entry of the adjacency matrix is 0 or 1: it is a scatter that sets the word of 1.0
  into a matrix of 0/1 integers read as floats, so each entry is one of the two. Every projected feature is a real
  number when the inputs are: it is a finite sum of products of real entries.
-/
import proofs.«123407_j91173565759712_1_alg».proof.Proof.Gen.ReferenceIdeal.Read
import proofs.«123407_j91173565759712_1_alg».proof.Proof.LibScatterSet
import proofs.«123407_j91173565759712_1_alg».proof.Proof.Law

set_option maxRecDepth 16384

noncomputable section

open scoped BigOperators

namespace Cert.ReferenceIdeal.RefSide

open Idealize.ShloMosaic Idealize.ShloMosaic.ValueIdx Cert.ReferenceIdeal Cert.ReferenceIdeal.Gen Cert.ReferenceIdeal.Read Cert.Lib

abbrev oneW : EReal := Ideal.ofBits .f32 0x3F800000#32
abbrev zeroW : EReal := Ideal.ofBits .f32 0x00000000#32
abbrev epsW : EReal := Ideal.ofBits .f32 0x3727C5AC#32

variable (x0 : (⟨S8192x256, .f32⟩ : BufTy).Contents (Elt Ideal)) (x1 : (⟨S2x262144, .i32⟩ : BufTy).Contents (Elt Ideal))
  (x2 : (⟨S256x256, .f32⟩ : BufTy).Contents (Elt Ideal))

/-- The reference's adjacency matrix and projected features, as the law's arrays. -/
abbrev adj : Law.Adj := val_main_v24 (F := Ideal) x1
abbrev feat : Law.Feat := val_main_v38 (F := Ideal) x0 x2

/-- The reference's degree vector at a row is the law's reference-side degree factor. -/
theorem degree_apply (i : S8192.Idx) :
    val_main_v30 (F := Ideal) x1 i = Law.degR oneW zeroW epsW (adj x1) (i 0) := by
  rw [val_main_v30_apply, val_main_v29_apply, val_main_cst_6_apply, val_main_v28_apply, val_main_v27_apply,
    val_main_v25_apply, val_main_cst_4_apply, val_main_v26_apply, val_main_cst_5_apply]
  unfold Law.degR
  have hidx : ∀ k : Fin 8192, idx_main_v25 i k = ix2 (i 0) k := fun k =>
    funext fun a => Fin.ext (by match a with | ⟨0, _⟩ => rfl | ⟨1, _⟩ => rfl)
  simp only [hidx, Ideal.hostDivf_def, Ideal.hostUnary_sqrt_def, Ideal.ofBits_def, Ideal.addf_def]
  rfl

/-- The normalised matrix at (i, k). -/
theorem normalised_apply (i k : Fin 8192) :
    val_main_v36 (F := Ideal) x1 (ix2 i k)
      = (Law.degR oneW zeroW epsW (adj x1) i * adj x1 (ix2 i k)) * Law.degR oneW zeroW epsW (adj x1) k := by
  rw [val_main_v36_apply, val_main_v33_apply, val_main_v32_apply, val_main_v31_apply, val_main_v35_apply,
    val_main_v34_apply, degree_apply, degree_apply]
  rfl

/-- The reference's result is the law's reference side of its adjacency matrix and projected features. -/
theorem result_eq : val_main_v40 (F := Ideal) x0 x1 x2 = Law.outR oneW zeroW epsW (adj x1) (feat x0 x2) := by
  funext j
  obtain ⟨r, c, rfl⟩ : ∃ (r : Fin 8192) (c : Fin 256), j = ix2 r c := ⟨j 0, j 1, eq_ix2 j⟩
  rw [val_main_v40_apply, val_main_v39_apply, val_main_call0_v0_apply, val_main_call0_cst_apply]
  have hl : ∀ k : Fin 8192, lidx_main_v39 (ix2 r c) k = ix2 r k := fun k =>
    funext fun a => Fin.ext (by match a with | ⟨0, _⟩ => rfl | ⟨1, _⟩ => rfl)
  have hr : ∀ k : Fin 8192, ridx_main_v39 (ix2 r c) k = ix2 k c := fun k =>
    funext fun a => Fin.ext (by match a with | ⟨0, _⟩ => rfl | ⟨1, _⟩ => rfl)
  simp only [hl, hr, Ideal.maximumf_def, Ideal.ofBits_def]
  show max (∑ k : Fin 8192, val_main_v36 (F := Ideal) x1 (ix2 r k) * val_main_v38 (F := Ideal) x0 x2 (ix2 k c)) zeroW
    = max (∑ k : Fin 8192, ((Law.degR oneW zeroW epsW (adj x1) r * adj x1 (ix2 r k)) * Law.degR oneW zeroW epsW (adj x1) k)
        * feat x0 x2 (ix2 k c)) zeroW
  refine congrArg (fun s : EReal => max s zeroW) (Finset.sum_congr rfl fun k _ => ?_)
  rw [normalised_apply x1 r k]

/-- Every entry of the adjacency matrix is 0 or 1. -/
theorem adj_zero_or_one (ix : S8192x8192.Idx) : adj x1 ix = 0 ∨ adj x1 ix = 1 := by
  unfold adj val_main_v24
  refine ScatterSet.scatter_set_forall _ _ _ (fun a : EReal => a = 0 ∨ a = 1) (fun j => ?_) _ (fun i => ?_) ix
  · rw [val_main_v23_apply, val_main_cst_apply]
    exact Or.inr Law.one_f32
  · rw [val_main_v5_apply]
    generalize val_main_v4 (F := Ideal) i = b
    show (((b.toNat : ℝ) : EReal)) = 0 ∨ (((b.toNat : ℝ) : EReal)) = 1
    have hb : b.toNat = 0 ∨ b.toNat = 1 := by have := b.isLt; omega
    rcases hb with h | h
    · left; rw [h]; simp
    · right; rw [h]; simp

/-- Every projected feature is real when every entry of x and of W is. -/
theorem feat_real (h0 : ∀ ix, ∃ r : ℝ, x0 ix = (r : EReal)) (h2 : ∀ ix, ∃ r : ℝ, x2 ix = (r : EReal)) (j : S8192x256.Idx) :
    ∃ r : ℝ, feat x0 x2 j = (r : EReal) := by
  choose a ha using h0
  choose w hw using h2
  refine ⟨∑ k : Fin 256, a (lidx_main_v38 j k) * w (idx_main_v37 (ridx_main_v38 j k)), ?_⟩
  unfold feat
  rw [val_main_v38_apply, Law.coe_sum]
  refine Finset.sum_congr rfl fun k _ => ?_
  rw [val_main_v37_apply, ha, hw, EReal.coe_mul]

end Cert.ReferenceIdeal.RefSide

end
-- ==== Proof.Finite.lean ====
/-
  What the precondition says: every entry of x and every entry of W is a real number.

  The precondition computes, for each of the two float inputs, whether |entry| < +∞ at every index (an "and" over all
  entries, started from true), and requires both answers to be true. An "and" that came out true met only trues, so
  at every index the comparison held; and an extended real whose absolute value max(v, −v) lies strictly below +∞ is
  neither +∞ nor −∞, hence the coercion of a real.
-/
import proofs.«123407_j91173565759712_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton Cert.Pre_finite_inputs.S_.Idx := ⟨fun a b => funext fun d => d.elim0⟩

/-- An extended real whose absolute value compares strictly below the word of +∞ is a real. -/
theorem real_of_abs_lt (v : EReal)
    (h : FloatOps.cmpf (F := Ideal) (φ := .f32) .olt (FloatOps.hostAbsf (F := Ideal) (φ := .f32) v) (FloatOps.ofBits (F := Ideal) .f32 0x7F800000#32) = 1#1) :
    ∃ r : ℝ, v = (r : EReal) := by
  have htop : Ideal.ofBits .f32 0x7F800000#32 = ⊤ := by simp [Ideal.ofBits, Ideal.ieee]
  have h' : Ideal.cmp .olt (max v (-v)) ⊤ = 1#1 := by rw [← htop]; exact h
  induction v using EReal.rec with
  | bot => exact absurd h' (by simp [Ideal.cmp])
  | top => exact absurd h' (by simp [Ideal.cmp])
  | coe r => exact ⟨r, rfl⟩

variable [Facts]

/-- Under the precondition every entry of both float inputs is real. -/
theorem real_inputs (x : FVec Ideal S8192x256 .f32) (e : IVec S2x262144 32) (w : FVec Ideal S256x256 .f32)
    (h : fn (F := Ideal) x e w = fun _ => 1#1) :
    (∀ ix, ∃ r : ℝ, x ix = (r : EReal)) ∧ (∀ ix, ∃ r : ℝ, w ix = (r : EReal)) := by
  have h0 := congrFun h ValueIdx.ix0
  dsimp only [fn] at h0
  obtain ⟨hx, hw⟩ := IntOp.andi_eq_one.1 h0
  exact ⟨fun ix => real_of_abs_lt _ (Host.reduce_andi_all _ _ _ _ _ hx ix),
    fun ix => real_of_abs_lt _ (Host.reduce_andi_all _ _ _ _ _ hw ix)⟩

end Cert.Finite

end
-- ==== Proof.lean ====
/-
  The certificate: a graph-convolution layer on 8192 nodes and 262144 edges, as a Pallas program against its jnp reference.

  Both programs build the 0/1 adjacency matrix A (the identity with a one set at every edge), take
  d i = 1/√((∑ j, A (i, j)) + ε), project the features H = x·Wᵀ, and return max (D A D H) 0 with D = diag d. The kernel
  program computes d in a first kernel (a row sum and a reciprocal square root), scales H by d on the host, and in a
  second kernel multiplies A into the scaled features, scales the rows by d and clamps; the reference normalises A on
  both sides and then multiplies.

  The three frames: the two kernel programs' are generated; the reference's is its generated run with the result
  dropped. The idealization rewrote nothing, so there is nothing to preserve. The value claim: the kernel program's
  result is the law's kernel side of (A, H) (KernelValue), the reference's is the law's reference side of the same
  (A, H) (RefSide), and the two sides agree because A is 0/1, H is real under the precondition (Finite), ε is a positive
  real and the words of 1.0 and 0.0 denote 1 and 0 (Law).
-/
import proofs.«123407_j91173565759712_1_alg».proof.Defs
import proofs.«123407_j91173565759712_1_alg».proof.Proof.Gen.Kernel
import proofs.«123407_j91173565759712_1_alg».proof.Proof.Gen.Kernel.Skeleton
import proofs.«123407_j91173565759712_1_alg».proof.Proof.Gen.Kernel.Launch
import proofs.«123407_j91173565759712_1_alg».proof.Proof.Gen.Kernel.Points
import proofs.«123407_j91173565759712_1_alg».proof.Proof.Gen.Kernel.Frame
import proofs.«123407_j91173565759712_1_alg».proof.Proof.Gen.KernelIdeal
import proofs.«123407_j91173565759712_1_alg».proof.Proof.Gen.KernelIdeal.Skeleton
import proofs.«123407_j91173565759712_1_alg».proof.Proof.Gen.KernelIdeal.Launch
import proofs.«123407_j91173565759712_1_alg».proof.Proof.Gen.KernelIdeal.Points
import proofs.«123407_j91173565759712_1_alg».proof.Proof.Gen.KernelIdeal.Frame
import proofs.«123407_j91173565759712_1_alg».proof.Proof.Gen.ReferenceIdeal
import proofs.«123407_j91173565759712_1_alg».proof.Proof.Gen.Pre_finite_inputs
import proofs.«123407_j91173565759712_1_alg».proof.Proof.Gen.ReferenceIdeal.Run
import proofs.«123407_j91173565759712_1_alg».proof.Proof.Gen.ReferenceIdeal.Read
import proofs.«123407_j91173565759712_1_alg».proof.Proof.KernelValue
import proofs.«123407_j91173565759712_1_alg».proof.Proof.RefSide
import proofs.«123407_j91173565759712_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two idealized programs, run from memories that agree on the arguments, end with the same result. -/
theorem algebraic : Cert.algebraic_KernelIdeal_ReferenceIdeal := by
  intro m ρ m' ρ' hpre hagree
  refine ⟨fun c => Cert.KernelIdeal.Gen.W4 m ρ c (Proc.devRef .tc Cert.KernelIdeal.main_v31),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Finite.real_inputs _ _ _ (hpre c)
  obtain ⟨e, he, hε⟩ := Cert.Law.eps_pos
  rw [Cert.ReferenceIdeal.Read.val_main_v40_eq, Cert.ReferenceIdeal.RefSide.result_eq, (hagree c).1, (hagree c).2.1,
    (hagree c).2.2]
  refine Eq.trans ?_ (Cert.KernelIdeal.KernelValue.result_eq m ρ c).symm
  exact (Cert.Law.outK_eq_outR _ _ _ _ _ e he hε Cert.Law.one_f32 Cert.Law.ofBits_zero
    (Cert.ReferenceIdeal.RefSide.adj_zero_or_one _) (Cert.ReferenceIdeal.RefSide.feat_real _ _ hx hw)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
